-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x256 .f32) (main_arg1 : IVec S800000 32) (main_arg2 : IVec S800000 32) (main_arg3 : FVec F S256x256 .f32) (main_arg4 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S25000 : Shape := ⟨1, ![25000]⟩
abbrev S50000x1 : Shape := ⟨2, ![50000, 1]⟩
abbrev S25000x1 : Shape := ⟨2, ![25000, 1]⟩
abbrev S1x256 : Shape := ⟨2, ![1, 256]⟩
abbrev S2000x256 : Shape := ⟨2, ![2000, 256]⟩
abbrev S2000x1 : Shape := ⟨2, ![2000, 1]⟩
abbrev S800000x256 : Shape := ⟨2, ![800000, 256]⟩
abbrev S25000x256 : Shape := ⟨2, ![25000, 256]⟩
abbrev S1000x256 : Shape := ⟨2, ![1000, 256]⟩
abbrev S1000x1 : Shape := ⟨2, ![1000, 1]⟩

abbrev nBuf : Space → Nat
  | .hbm => 67
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S25000, .f32⟩
  | .hbm, ⟨13, _⟩ => ⟨S800000x1, .i32⟩
  | .hbm, ⟨14, _⟩ => ⟨S25000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S25000, .f32⟩
  | .hbm, ⟨28, _⟩ => ⟨S25000, .i1⟩
  | .hbm, ⟨29, _⟩ => ⟨S_, .f32⟩
  | .hbm, ⟨30, _⟩ => ⟨S25000, .f32⟩
  | .hbm, ⟨31, _⟩ => ⟨S25000, .f32⟩
  | .hbm, ⟨32, _⟩ => ⟨S_, .f32⟩
  | .hbm, ⟨33, _⟩ => ⟨S_, .f32⟩
  | .hbm, ⟨34, _⟩ => ⟨S25000, .f32⟩
  | .hbm, ⟨35, _⟩ => ⟨S25000, .f32⟩
  | .hbm, ⟨36, _⟩ => ⟨S25000x1, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S25000x256, .f32⟩
  | .hbm, ⟨50, _⟩ => ⟨S800000x1, .i32⟩
  | .hbm, ⟨51, _⟩ => ⟨S25000x256, .f32⟩
  | .hbm, ⟨52, _⟩ => ⟨S25000x256, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x256, .f32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x1, .f32⟩
  | .local _ .vmem, ⟨5, _⟩ => ⟨S2000x1, .f32⟩
  | .local _ .vmem, ⟨6, _⟩ => ⟨S2000x256, .f32⟩
  | .local _ .vmem, ⟨7, _⟩ => ⟨S2000x256, .f32⟩
  | .local _ .vmem, ⟨8, _⟩ => ⟨S1000x256, .f32⟩
  | .local _ .vmem, ⟨9, _⟩ => ⟨S1000x256, .f32⟩
  | .local _ .vmem, ⟨10, _⟩ => ⟨S1000x1, .f32⟩
  | .local _ .vmem, ⟨11, _⟩ => ⟨S1000x1, .f32⟩
  | .local _ .vmem, ⟨12, _⟩ => ⟨S1000x256, .f32⟩
  | .local _ .vmem, ⟨13, _⟩ => ⟨S1000x256, .f32⟩
  | .local _ .vmem, ⟨14, _⟩ => ⟨S2000x256, .f32⟩
  | .local _ .vmem, ⟨15, _⟩ => ⟨S2000x256, .f32⟩
  | .local _ .vmem, ⟨16, _⟩ => ⟨S2000x1, .f32⟩
  | .local _ .vmem, ⟨17, _⟩ => ⟨S2000x1, .f32⟩
  | .local _ .vmem, ⟨18, _⟩ => ⟨S2000x256, .f32⟩
  | .local _ .vmem, ⟨19, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_c_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_10 : Ref sig .tc := ⟨.hbm, 53, rfl⟩
abbrev main_v32 : Ref sig .tc := ⟨.hbm, 54, rfl⟩
abbrev main_v33 : Ref sig .tc := ⟨.hbm, 55, rfl⟩
abbrev main_c_11 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_12 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S25000 : S_.BroadcastsInDim S25000 (![] : Fin 0 → Fin S25000.rank)
  shapeCasts_S50000_S50000x1 : S50000.ShapeCasts S50000x1
  shapeCasts_S25000_S25000x1 : S25000.ShapeCasts S25000x1
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S25000x256 : S_.BroadcastsInDim S25000x256 (![] : Fin 0 → Fin S25000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  bcast_S_S50000x256 : S_.BroadcastsInDim S50000x256 (![] : Fin 0 → Fin S50000x256.rank)
  shapeCasts_S2000x256_S2000x256 : S2000x256.ShapeCasts S2000x256
  scatter_S50000_S800000x1_S800000_n_0_0_1_wf : ScatterDims.WF S50000 S800000x1 S800000 [] [0] [0] 1
  scatter_S25000_S800000x1_S800000_n_0_0_1_wf : ScatterDims.WF S25000 S800000x1 S800000 [] [0] [0] 1
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S25000x256_S800000x1_S800000x256_1_0_0_1_wf : ScatterDims.WF S25000x256 S800000x1 S800000x256 [1] [0] [0] 1
  gather_S25000x256_S800000x1_S800000x256_1_0_n_n_0_1_1256_wf : GatherDims.WF S25000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S25000x256.size a
  hwx1_0 : ∀ i : grid1.Coords, EltTy.bits .f32 = 32 ∨ (Rect.block (s := S25000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S25000x1.size a
  hwx1_1 : ∀ i : grid1.Coords, EltTy.bits .f32 = 32 ∨ (Rect.block (s := S25000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S25000x256.size a
  hwx1_2 : ∀ i : grid1.Coords, EltTy.bits .f32 = 32 ∨ (Rect.block (s := S25000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S25000_S800000x1_S800000_n_0_0_1 : ScatterDims S25000 S800000x1 S800000 where
  updateWindowDims := []
  insertedWindowDims := [0]
  scatterDimsToOperandDims := [0]
  indexVectorDim := 1
  wf := scatter_S25000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S25000x256_S800000x1_S800000x256_1_0_0_1 : ScatterDims S25000x256 S800000x1 S800000x256 where
  updateWindowDims := [1]
  insertedWindowDims := [0]
  scatterDimsToOperandDims := [0]
  indexVectorDim := 1
  wf := scatter_S25000x256_S800000x1_S800000x256_1_0_0_1_wf
def gather_S25000x256_S800000x1_S800000x256_1_0_n_n_0_1_1256 : GatherDims S25000x256 S800000x1 S800000x256 where
  offsetDims := [1]
  collapsedSliceDims := [0]
  operandBatchingDims := []
  startIndicesBatchingDims := []
  startIndexMap := [0]
  indexVectorDim := 1
  sliceSizes := ![1, 256]
  wf := gather_S25000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S1x256 : Shape := ⟨2, ![1, 256]⟩
abbrev S_ : Shape := ⟨0, ![]⟩
abbrev S50000 : Shape := ⟨1, ![50000]⟩
abbrev S800000x1 : Shape := ⟨2, ![800000, 1]⟩
abbrev S25000 : Shape := ⟨1, ![25000]⟩
abbrev S50000x1 : Shape := ⟨2, ![50000, 1]⟩
abbrev S800000x256 : Shape := ⟨2, ![800000, 256]⟩
abbrev S25000x256 : Shape := ⟨2, ![25000, 256]⟩
abbrev S25000x1 : Shape := ⟨2, ![25000, 1]⟩

abbrev nBuf : Space → Nat
  | .hbm => 74
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S50000x256, .f32⟩
  | .hbm, ⟨6, _⟩ => ⟨S1x256, .f32⟩
  | .hbm, ⟨7, _⟩ => ⟨S50000x256, .f32⟩
  | .hbm, ⟨8, _⟩ => ⟨S50000x256, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S25000, .f32⟩
  | .hbm, ⟨17, _⟩ => ⟨S800000x1, .i32⟩
  | .hbm, ⟨18, _⟩ => ⟨S25000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S25000, .f32⟩
  | .hbm, ⟨31, _⟩ => ⟨S25000, .i1⟩
  | .hbm, ⟨32, _⟩ => ⟨S_, .f32⟩
  | .hbm, ⟨33, _⟩ => ⟨S25000, .f32⟩
  | .hbm, ⟨34, _⟩ => ⟨S25000, .f32⟩
  | .hbm, ⟨35, _⟩ => ⟨S_, .f32⟩
  | .hbm, ⟨36, _⟩ => ⟨S_, .f32⟩
  | .hbm, ⟨37, _⟩ => ⟨S25000, .f32⟩
  | .hbm, ⟨38, _⟩ => ⟨S25000, .f32⟩
  | .hbm, ⟨39, _⟩ => ⟨S50000x1, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S25000x256, .f32⟩
  | .hbm, ⟨53, _⟩ => ⟨S800000x1, .i32⟩
  | .hbm, ⟨54, _⟩ => ⟨S25000x256, .f32⟩
  | .hbm, ⟨55, _⟩ => ⟨S25000x1, .f32⟩
  | .hbm, ⟨56, _⟩ => ⟨S25000x256, .f32⟩
  | .hbm, ⟨57, _⟩ => ⟨S25000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S50000x1, .f32⟩
  | .hbm, ⟨72, _⟩ => ⟨S50000x256, .f32⟩
  | .hbm, ⟨73, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_v38 : Ref sig .tc := ⟨.hbm, 60, rfl⟩
abbrev main_c_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S25000 : S_.BroadcastsInDim S25000 (![] : Fin 0 → Fin S25000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S25000x256 : S_.BroadcastsInDim S25000x256 (![] : Fin 0 → Fin S25000x256.rank)
  bcast_S25000_S25000x1_0 : S25000.BroadcastsInDim S25000x1 (![0] : Fin 1 → Fin S25000x1.rank)
  bcast_S25000x1_S25000x256_0_1 : S25000x1.BroadcastsInDim S25000x256 (![0, 1] : Fin 2 → Fin S25000x256.rank)
  bcast_S_S50000x256 : S_.BroadcastsInDim S50000x256 (![] : Fin 0 → Fin S50000x256.rank)
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  scatter_S25000_S800000x1_S800000_n_0_0_1_wf : ScatterDims.WF S25000 S800000x1 S800000 [] [0] [0] 1
  gather_S50000x256_S800000x1_S800000x256_1_0_n_n_0_1_1256_wf : GatherDims.WF S50000x256 S800000x1 S800000x256 [1] [0] [] [0] [] 1 ![1, 256]
  scatter_S25000x256_S800000x1_S800000x256_1_0_0_1_wf : ScatterDims.WF S25000x256 S800000x1 S800000x256 [1] [0] [0] 1
  gather_S25000x256_S800000x1_S800000x256_1_0_n_n_0_1_1256_wf : GatherDims.WF S25000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S25000_S800000x1_S800000_n_0_0_1 : ScatterDims S25000 S800000x1 S800000 where
  updateWindowDims := []
  insertedWindowDims := [0]
  scatterDimsToOperandDims := [0]
  indexVectorDim := 1
  wf := scatter_S25000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S25000x256_S800000x1_S800000x256_1_0_0_1 : ScatterDims S25000x256 S800000x1 S800000x256 where
  updateWindowDims := [1]
  insertedWindowDims := [0]
  scatterDimsToOperandDims := [0]
  indexVectorDim := 1
  wf := scatter_S25000x256_S800000x1_S800000x256_1_0_0_1_wf
def gather_S25000x256_S800000x1_S800000x256_1_0_n_n_0_1_1256 : GatherDims S25000x256 S800000x1 S800000x256 where
  offsetDims := [1]
  collapsedSliceDims := [0]
  operandBatchingDims := []
  startIndicesBatchingDims := []
  startIndexMap := [0]
  indexVectorDim := 1
  sliceSizes := ![1, 256]
  wf := gather_S25000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KRun.lean ====
/-
  The idealized kernel's run, read at EVERY buffer.

  @main is a chain of ten segments: five stretches of host operations (the two degree vectors by scatter-add, their
  reciprocal scalings, the reshapes), the first pipelined kernel, a stretch (gather the scaled rows by node, scatter-add
  them by edge), the second kernel, a stretch (gather by edge, scatter-add by node) and the third kernel. The buffers'
  contents at each boundary are a fold from the launch memory: a host stretch applies its operations, a kernel replaces
  its output array by what its write-backs leave and keeps every other buffer. `ends_at_last_boundary` says what that
  fold means for the run: every weakly fair execution terminates without a fault, and in the final memory every buffer
  that is not scoped to a kernel holds the last boundary's contents. `run_named` reads it at the result array and at
  the five arguments.
-/
import proofs.«100249_j46342697124074_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element: the staging cells of the three pipelines, each with its launch tokens. -/
abbrev launchElt : UR sig nD τ := initOf (Pipeline.cells cfgs cellOf_inj) (Pipeline.launchToks cfgs cellOf_inj)

set_option backward.isDefEq.respectTransparency.types false in
/-- THE RUN AT EVERY BUFFER. Any property of the final memory that follows from "on every core, every unscoped buffer
    holds the contents the boundary fold ends with" holds after every weakly fair execution of @main, all of which
    terminate without a fault. The thread state between two segments is "every unscoped buffer whole at that boundary's
    contents, the generator register at some state, nothing owed"; consecutive segments meet at the same state, the
    first is what the launch deals each core, and the last is read against the final memory buffer by buffer. -/
theorem ends_at_last_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q := by
  refine Pipeline.θ_run_regions_kit (pcfgs (F := F)) adm (pdats m ρ) () cellOf_inj emb₁ defs₀ 𝒱₀ L lv m ρ main (segs m ρ)
    (fun c Q => by rw [main_run m ρ c]) ?nodup (O₀ := 0) (hL := fun _ _ => rfl) (G := fun _ => (BI.emp : sProp 𝕄))
    (u₀ := launchElt) ?launch
    (T₀ := fun c => iprop(StableHlo.held (c : Thread nD τ) (Pipeline.ucRefs τ sig) (W0 m ρ c) ∗ R c)) (Tₙ := Tₙ m ρ)
    ?chain ?first
    (QY := fun c s => ∀ b ∈ Pipeline.ucRefs τ sig, s.mem (((c : Thread nD τ)).1, b) = W10 m ρ c b) ?last hQ
  case nodup =>
    -- the three kernels are three different pipelines
    simp only [segs, Pipeline.Seg.pipes_host, Pipeline.Seg.pipes_region, Pipeline.Seg.pipes_nil]
    decide
  case launch =>
    -- the launch element is the pipelines' own; no core needs a ghost resource of its own
    iintro Hu
    imodintro
    isplitl [Hu]
    · -- owning the element is owning its image under the embedding: the two are one proposition
      iapply (show (ownU launchElt : sProp 𝕄) ⊢ BI.own (emb₁ launchElt) from .rfl)
      iexact Hu
    · rw [BI.bigSep_emp_const]
      iempintro
  case chain =>
    -- each segment's post is the next one's pre, by the way the boundary contents are named
    exact ⟨fun _ => .rfl, fun _ => .rfl, fun _ => .rfl, fun _ => .rfl, fun _ => .rfl, fun _ => .rfl, fun _ => .rfl,
      fun _ => .rfl, fun _ => .rfl, fun _ => .rfl, fun _ => .rfl⟩
  case first =>
    -- what the launch deals a core: its unscoped buffers at the launch memory, its register, owing nothing
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howes, -, Hreg, -⟩, -⟩
    imodintro
    isplitl [Hbufs]
    · iexact Hbufs
    isplitl [Hreg]
    · iexists _
      iexact Hreg
    · iexists ∅
      iexact Howes
  case last =>
    -- holding every unscoped buffer whole at the last contents, the final memory has those contents
    intro c s'
    iintro ⟨⟨Hbufs, -⟩, HSI⟩
    unfold StableHlo.held
    imodintro
    iapply (pointsTo_read_all (Pipeline.ucRefs τ sig) (fun b => (((c : Thread nD τ)).1, b)) (W10 m ρ c) s')
    isplitl [Hbufs] <;> iassumption

/-- The result array ends at the last boundary's contents at its reference, and the five arguments as launched. -/
theorem run_named : θ_run defs (onTc (τ := τ) (main (F := F))) ⟨m, fun _ => 0, ρ⟩ (fun r => ∀ c : Dev nD,
      r.2.mem ((c.tc : Thread nD τ).loc main_v42) = W10 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  ends_at_last_boundary m ρ fun s h c =>
    ⟨h c _ (mem_uc main_v42 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c)⟩

end Cert.KernelIdeal.Whole

end
-- ==== Proof.Blocks.lean ====
/-
  What each of the three kernels leaves in its output array, as ONE function of the arrays it finds at entry.

  Each kernel runs over 25 grid points; point `t` stages block `t` of every row-blocked operand (2000 rows for the node
  kernels, 1000 for the edge kernel), computes, and writes block `t` of the output back. The bodies are pointwise in the
  row index, so block `t` of the output is the restriction to rows `[t·B, (t+1)·B)` of one whole-array function:
  * the two scaling kernels: `out[r, c] = x[r, c] · d[r, 0]` (`scaleRows`), for every float instance;
  * the matrix kernel, at the extended reals: `out[r, c] = d[r, 0] · (Σ_k X[r, k] · W[k, c] + b[0, c])` (`gemmScaled`):
    the two narrowings to bf16 are the identity there and the product into a zero accumulator is the plain sum.
  The 25 blocks tile the rows (row `r` lies in block `r / B`), so the array after the kernel IS that function
  (`scaled_e`, `scaled_v`, `gemm_scaled`).
-/
import proofs.«100249_j46342697124074_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

theorem zeros2 : (![0, 0] : Fin 2 → Nat) = fun _ => 0 := funext fun a => by fin_cases a <;> rfl

/-! ## Rows scaled by a column -/

/-- Every row of `x` multiplied, entry by entry, by that row's entry of the one-column array `d`. -/
def scaleRows {n k : Nat} (x : (⟨2, ![n, k]⟩ : Shape).Idx → Elt F .f32) (d : (⟨2, ![n, 1]⟩ : Shape).Idx → Elt F .f32) :
    (⟨2, ![n, k]⟩ : Shape).Idx → Elt F .f32 :=
  fun i => FloatOps.mulf (x i) (d (ix2 (i 0) (0 : Fin 1)))

/-- The edge kernel's body: its 1000-row block times the block's column of scales, row by row. -/
theorem body_e (x0 : Vec F S1000x256 .f32) (x1 : Vec F S1000x1 .f32) :
    k1_pay1 x0 x1 = scaleRows (n := 1000) (k := 256) x0 x1 := by
  unfold k1_pay1
  funext j
  simp only [shapeCast_self]
  show FloatOps.mulf (x0 j) (broadcastTo S1000x256 x1 broadcasts_S1000x1_S1000x256 j) = FloatOps.mulf (x0 j) (x1 (ix2 (j 0) (0 : Fin 1)))
  rw [broadcastTo_apply x1 broadcasts_S1000x1_S1000x256 j (ix2 (j 0) (0 : Fin 1))
    (fun a => by match a with | ⟨0, _⟩ => rfl | ⟨1, _⟩ => rfl)]

/-- The last kernel's body: its 2000-row block times the block's column of scales, row by row. -/
theorem body_v (x0 : Vec F S2000x256 .f32) (x1 : Vec F S2000x1 .f32) :
    k2_pay1 x0 x1 = scaleRows (n := 2000) (k := 256) x0 x1 := by
  unfold k2_pay1
  funext j
  simp only [shapeCast_self]
  show FloatOps.mulf (x0 j) (broadcastTo S2000x256 x1 broadcasts_S2000x1_S2000x256 j) = FloatOps.mulf (x0 j) (x1 (ix2 (j 0) (0 : Fin 1)))
  rw [broadcastTo_apply x1 broadcasts_S2000x1_S2000x256 j (ix2 (j 0) (0 : Fin 1))
    (fun a => by match a with | ⟨0, _⟩ => rfl | ⟨1, _⟩ => rfl)]

section AtEntry

variable (V : (c : Dev nD) → (b : Ref sig .tc) → Buf (Elt F) ((c : Thread nD τ).loc b))

/-! ## The edge kernel (25 blocks of 1000 rows) -/

/-- Point `t` stages block `t` of each operand and of the output: row-block index `t`, column-block index 0. -/
theorem blocks_e : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the rows of the entry array scaled by the entry column. -/
theorem flushed_e (c : Dev nD) (t : Fin cfg1.N) :
    (dat1 V c).flushed 2 t = ((cfg1.win 2).blk t).view.read (Elt F)
      (scaleRows (n := 25000) (k := 256) (V c main_v30) (V c main_v18)) := by
  show (cfg1.win 2).cut (grid1.coords t) ((dat1 V c).after 2 t) = _
  rw [after1_2]
  unfold out1_2
  rw [View.canon_unit_zero zeros2]
  simp only [View.ld_unit_zero (S := S1000x256) zeros2, View.ld_unit_zero (S := S1000x1) zeros2]
  rw [body_e]
  obtain ⟨e0, e1, e2, e3, e4, e5⟩ := blocks_e t
  funext j
  show FloatOps.mulf (V c main_v30 (((cfg1.win 0).blk t).view.emb j)) (V c main_v18 (((cfg1.win 1).blk t).view.emb (ix2 (j 0) (0 : Fin 1))))
    = FloatOps.mulf (V c main_v30 (((cfg1.win 2).blk t).view.emb j)) (V c main_v18 (ix2 ((((cfg1.win 2).blk t).view.emb j) 0) (0 : Fin 1)))
  have h0 : ((cfg1.win 0).blk t).view.emb j = ((cfg1.win 2).blk t).view.emb j := by
    funext a; apply Fin.ext
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 256 + 1 * (j 1).val = win1_2.index t (1 : Fin 2) * 256 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 1000 + 1 * (j 0).val = win1_2.index t (0 : Fin 2) * 1000 + 1 * (j 0).val; omega
    | ⟨1, _⟩ => show win1_1.index t (1 : Fin 2) * 1 + 1 * 0 = 0; omega
  rw [h0, h1]
  rfl

/-- An index of the output array is in point `t`'s block iff each coordinate is in the block's range on its axis. -/
theorem mem_block_e (t : Fin cfg1.N) (i : S25000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v31).slice (win1_2.rect t)).set ↔ _
  rw [View.set_slice_whole, Rect.mem_set_unit]
  exact Iff.rfl

/-- THE EDGE KERNEL'S OUTPUT: the entry array's rows scaled by the entry column (row `r` is in block `r / 1000`). -/
theorem scaled_e (c : Dev nD) :
    (dat1 V c).arrAt 2 cfg1.N = scaleRows (n := 25000) (k := 256) (V c main_v30) (V c main_v18) :=
  (dat1 V c).arrAt_eq_of_cover 2 _ (fun t _ => flushed_e V c t) fun i => by
    have hN : cfg1.N = 25 := N_1
    have h0 : (i 0).val < 25000 := (i 0).isLt
    have h1 : (i 1).val < 256 := (i 1).isLt
    refine ⟨⟨(i 0).val / 1000, by omega⟩, flush1_2 _, ?_⟩
    rw [mem_block_e]
    obtain ⟨-, -, -, -, e4, e5⟩ := blocks_e ⟨(i 0).val / 1000, by omega⟩
    intro a
    match a with
    | ⟨0, _⟩ =>
      show win1_2.index ⟨(i 0).val / 1000, _⟩ (0 : Fin 2) * 1000 ≤ (i 0).val ∧ (i 0).val < win1_2.index ⟨(i 0).val / 1000, _⟩ (0 : Fin 2) * 1000 + 1000
      rw [e4]; dsimp only; omega
    | ⟨1, _⟩ =>
      show win1_2.index ⟨(i 0).val / 1000, _⟩ (1 : Fin 2) * 256 ≤ (i 1).val ∧ (i 1).val < win1_2.index ⟨(i 0).val / 1000, _⟩ (1 : Fin 2) * 256 + 256
      rw [e5]; omega

/-! ## The last kernel (25 blocks of 2000 rows) -/

/-- Point `t` stages block `t` of each operand and of the output: row-block index `t`, column-block index 0. -/
theorem blocks_v : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the rows of the entry array scaled by the entry column. -/
theorem flushed_v (c : Dev nD) (t : Fin cfg2.N) :
    (dat2 V c).flushed 2 t = ((cfg2.win 2).blk t).view.read (Elt F)
      (scaleRows (n := 50000) (k := 256) (V c main_v41) (V c main_v12)) := by
  show (cfg2.win 2).cut (grid2.coords t) ((dat2 V c).after 2 t) = _
  rw [after2_2]
  unfold out2_2
  rw [View.canon_unit_zero zeros2]
  simp only [View.ld_unit_zero (S := S2000x256) zeros2, View.ld_unit_zero (S := S2000x1) zeros2]
  rw [body_v]
  obtain ⟨e0, e1, e2, e3, e4, e5⟩ := blocks_v t
  funext j
  show FloatOps.mulf (V c main_v41 (((cfg2.win 0).blk t).view.emb j)) (V c main_v12 (((cfg2.win 1).blk t).view.emb (ix2 (j 0) (0 : Fin 1))))
    = FloatOps.mulf (V c main_v41 (((cfg2.win 2).blk t).view.emb j)) (V c main_v12 (ix2 ((((cfg2.win 2).blk t).view.emb j) 0) (0 : Fin 1)))
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * (j 1).val = win2_2.index t (1 : Fin 2) * 256 + 1 * (j 1).val; omega
  have h1 : ((cfg2.win 1).blk t).view.emb (ix2 (j 0) (0 : Fin 1)) = ix2 ((((cfg2.win 2).blk t).view.emb j) 0) (0 : Fin 1) := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 1 + 1 * 0 = 0; omega
  rw [h0, h1]
  rfl

/-- An index of the output array is in point `t`'s block iff each coordinate is in the block's range on its axis. -/
theorem mem_block_v (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v42).slice (win2_2.rect t)).set ↔ _
  rw [View.set_slice_whole, Rect.mem_set_unit]
  exact Iff.rfl

/-- THE LAST KERNEL'S OUTPUT: the entry array's rows scaled by the entry column (row `r` is in block `r / 2000`). -/
theorem scaled_v (c : Dev nD) :
    (dat2 V c).arrAt 2 cfg2.N = scaleRows (n := 50000) (k := 256) (V c main_v41) (V c main_v12) :=
  (dat2 V c).arrAt_eq_of_cover 2 _ (fun t _ => flushed_v V c t) fun i => by
    have hN : cfg2.N = 25 := N_2
    have h0 : (i 0).val < 50000 := (i 0).isLt
    have h1 : (i 1).val < 256 := (i 1).isLt
    refine ⟨⟨(i 0).val / 2000, by omega⟩, flush2_2 _, ?_⟩
    rw [mem_block_v]
    obtain ⟨-, -, -, -, e4, e5⟩ := blocks_v ⟨(i 0).val / 2000, by omega⟩
    intro a
    match a with
    | ⟨0, _⟩ =>
      show win2_2.index ⟨(i 0).val / 2000, _⟩ (0 : Fin 2) * 2000 ≤ (i 0).val ∧ (i 0).val < win2_2.index ⟨(i 0).val / 2000, _⟩ (0 : Fin 2) * 2000 + 2000
      rw [e4]; dsimp only; omega
    | ⟨1, _⟩ =>
      show win2_2.index ⟨(i 0).val / 2000, _⟩ (1 : Fin 2) * 256 ≤ (i 1).val ∧ (i 1).val < win2_2.index ⟨(i 0).val / 2000, _⟩ (1 : Fin 2) * 256 + 256
      rw [e5]; omega

end AtEntry

/-! ## The matrix kernel (25 blocks of 2000 rows), at the extended reals -/

section Gemm

/-- `d[r, 0] · (Σ_k X[r, k] · W[k, c] + b[0, c])`: the product's rows, with the bias row added, scaled by the column. -/
def gemmScaled {n : Nat} (X : (⟨2, ![n, 256]⟩ : Shape).Idx → EReal) (W : (⟨2, ![256, 256]⟩ : Shape).Idx → EReal)
    (b : (⟨2, ![1, 256]⟩ : Shape).Idx → EReal) (d : (⟨2, ![n, 1]⟩ : Shape).Idx → EReal) : (⟨2, ![n, 256]⟩ : Shape).Idx → EReal :=
  fun i => d (ix2 (i 0) (0 : Fin 1)) * ((∑ k : Fin 256, X (ix2 (i 0) k) * W (ix2 k (i 1))) + b (ix2 (0 : Fin 1) (i 1)))

/-- The block product's dimension numbers: [2000,256] × [256,256], contracting the one shared axis. -/
abbrev D₀ : DotDims S2000x256 S256x256 S2000x256 := dot_S2000x256_S256x256_S2000x256_1_0_0_1_n_n

/-- The block product's left operand index at output (r, c) and contraction k is (r, k) … -/
theorem lhs_row (j : S2000x256.Idx) (q : D₀.contr.Idx) : (D₀.lhsIdx j q 0).val = (j 0).val := by
  unfold DotDims.lhsIdx
  rw [dif_neg (show ¬(0 : Fin S2000x256.rank) ∈ D₀.lhsBatch by decide), dif_pos (show (0 : Fin S2000x256.rank) ∈ D₀.lhsNonContracting by decide)]
  rfl
theorem lhs_col (j : S2000x256.Idx) (q : D₀.contr.Idx) : (D₀.lhsIdx j q 1).val = (q ⟨0, by decide⟩).val :=
  D₀.lhsIdx_val_of_single rfl j q
/-- … and the right operand's is (k, c). -/
theorem rhs_row (j : S2000x256.Idx) (q : D₀.contr.Idx) : (D₀.rhsIdx j q 0).val = (q ⟨0, by decide⟩).val :=
  D₀.rhsIdx_val_of_single rfl j q
theorem rhs_col (j : S2000x256.Idx) (q : D₀.contr.Idx) : (D₀.rhsIdx j q 1).val = (j 1).val := by
  unfold DotDims.rhsIdx
  rw [dif_neg (show ¬(1 : Fin S256x256.rank) ∈ D₀.rhsBatch by decide), dif_pos (show (1 : Fin S256x256.rank) ∈ D₀.rhsNonContracting by decide)]
  rfl

/-- The block's matrix product into a zero accumulator, at an entry: the plain sum over the 256 contracted positions. -/
theorem block_product (A : FVec Ideal S2000x256 .bf16) (B : FVec Ideal S256x256 .bf16) (j : S2000x256.Idx) :
    matmul (F := Ideal) D₀ none A B (constant (F := Ideal) S2000x256 .f32 0x00000000#32) j = ∑ k : Fin 256, A (ix2 (j 0) k) * B (ix2 k (j 1)) := by
  simp only [matmul]
  rw [Ideal.matmul_constant_zero_apply, ← Equiv.sum_comp (contrEquiv1 D₀ 256 rfl rfl).symm]
  refine Finset.sum_congr rfl fun k _ => ?_
  have hk : (((contrEquiv1 D₀ 256 rfl rfl).symm k) ⟨0, by decide⟩ : ℕ) = k.val := contrEquiv1_symm_val D₀ 256 rfl rfl k
  have hl : D₀.lhsIdx j ((contrEquiv1 D₀ 256 rfl rfl).symm k) = ix2 (j 0) k := by
    funext a; apply Fin.ext
    match a with
    | ⟨0, _⟩ => exact lhs_row j _
    | ⟨1, _⟩ => exact (lhs_col j _).trans hk
  have hr : D₀.rhsIdx j ((contrEquiv1 D₀ 256 rfl rfl).symm k) = ix2 k (j 1) := by
    funext a; apply Fin.ext
    match a with
    | ⟨0, _⟩ => exact (rhs_row j _).trans hk
    | ⟨1, _⟩ => exact rhs_col j _
  rw [hl, hr]
  rfl

/-- The matrix kernel's body at an entry of its block. -/
theorem body_g (x0 : Vec Ideal S2000x256 .f32) (x1 : Vec Ideal S256x256 .f32) (x2 : Vec Ideal S1x256 .f32) (x3 : Vec Ideal S2000x1 .f32) :
    k0_pay1 x0 x1 x2 x3 = gemmScaled (n := 2000) x0 x1 x2 x3 := by
  unfold k0_pay1
  funext j
  simp only [shapeCast_self]
  show (broadcastTo S2000x256 x3 broadcasts_S2000x1_S2000x256 j : EReal)
      * (matmul (F := Ideal) D₀ none (truncf (F := Ideal) .bf16 x0 bitsLt_bf16_f32) (truncf (F := Ideal) .bf16 x1 bitsLt_bf16_f32) (constant (F := Ideal) S2000x256 .f32 0x00000000#32) j
        + broadcastTo S2000x256 x2 broadcasts_S1x256_S2000x256 j) = _
  rw [block_product,
    broadcastTo_apply x3 broadcasts_S2000x1_S2000x256 j (ix2 (j 0) (0 : Fin 1)) (fun a => by match a with | ⟨0, _⟩ => rfl | ⟨1, _⟩ => rfl),
    broadcastTo_apply x2 broadcasts_S1x256_S2000x256 j (ix2 (0 : Fin 1) (j 1)) (fun a => by match a with | ⟨0, _⟩ => rfl | ⟨1, _⟩ => rfl)]
  rfl

variable (V : (c : Dev nD) → (b : Ref sig .tc) → Buf (Elt Ideal) ((c : Thread nD τ).loc b))

/-- Point `t` stages row block `t` of X, of the scale column and of the output, and the whole of W and of the bias row. -/
theorem blocks_g : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `gemmScaled` of the entry arrays. -/
theorem flushed_g (c : Dev nD) (t : Fin cfg0.N) :
    (dat0 V c).flushed 4 t = ((cfg0.win 4).blk t).view.read (Elt Ideal)
      (gemmScaled (n := 50000) (V c main_arg0) (V c main_arg3) (V c main_v19) (V c main_v12)) := by
  show (cfg0.win 4).cut (grid0.coords t) ((dat0 V c).after 4 t) = _
  rw [after0_4]
  unfold out0_4
  rw [View.canon_unit_zero zeros2]
  simp only [View.ld_unit_zero (S := S2000x256) zeros2, View.ld_unit_zero (S := S256x256) zeros2,
    View.ld_unit_zero (S := S1x256) zeros2, View.ld_unit_zero (S := S2000x1) zeros2]
  rw [body_g]
  obtain ⟨e0, e1, e2, e3, e4, e5, e6, e7, e8, e9⟩ := blocks_g t
  funext j
  -- the four entry arrays, as arrays of extended reals
  let X : S50000x256.Idx → EReal := V c main_arg0
  let W : S256x256.Idx → EReal := V c main_arg3
  let b : S1x256.Idx → EReal := V c main_v19
  let d : S50000x1.Idx → EReal := V c main_v12
  show d (((cfg0.win 3).blk t).view.emb (ix2 (j 0) (0 : Fin 1)))
      * ((∑ k : Fin 256, X (((cfg0.win 0).blk t).view.emb (ix2 (j 0) k)) * W (((cfg0.win 1).blk t).view.emb (ix2 k (j 1))))
        + b (((cfg0.win 2).blk t).view.emb (ix2 (0 : Fin 1) (j 1))))
    = d (ix2 ((((cfg0.win 4).blk t).view.emb j) 0) (0 : Fin 1))
      * ((∑ k : Fin 256, X (ix2 ((((cfg0.win 4).blk t).view.emb j) 0) k) * W (ix2 k ((((cfg0.win 4).blk t).view.emb j) 1)))
        + b (ix2 (0 : Fin 1) ((((cfg0.win 4).blk t).view.emb j) 1)))
  have hj0 : (j 0).val < 2000 := (j 0).isLt
  have hj1 : (j 1).val < 256 := (j 1).isLt
  have hd : ((cfg0.win 3).blk t).view.emb (ix2 (j 0) (0 : Fin 1)) = ix2 ((((cfg0.win 4).blk t).view.emb j) 0) (0 : Fin 1) := by
    funext a; apply Fin.ext
    match a with
    | ⟨0, _⟩ => show win0_3.index t (0 : Fin 2) * 2000 + 1 * (j 0).val = win0_4.index t (0 : Fin 2) * 2000 + 1 * (j 0).val; omega
    | ⟨1, _⟩ => show win0_3.index t (1 : Fin 2) * 1 + 1 * 0 = 0; omega
  have hb : ((cfg0.win 2).blk t).view.emb (ix2 (0 : Fin 1) (j 1)) = ix2 (0 : Fin 1) ((((cfg0.win 4).blk t).view.emb j) 1) := by
    funext a; apply Fin.ext
    match a with
    | ⟨0, _⟩ => show win0_2.index t (0 : Fin 2) * 1 + 1 * 0 = 0; omega
    | ⟨1, _⟩ => show win0_2.index t (1 : Fin 2) * 256 + 1 * (j 1).val = win0_4.index t (1 : Fin 2) * 256 + 1 * (j 1).val; omega
  have hx : ∀ k : Fin 256, ((cfg0.win 0).blk t).view.emb (ix2 (j 0) k) = ix2 ((((cfg0.win 4).blk t).view.emb j) 0) k := fun k => by
    funext a; apply Fin.ext
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 256 + 1 * k.val = k.val; omega
  have hw : ∀ k : Fin 256, ((cfg0.win 1).blk t).view.emb (ix2 k (j 1)) = ix2 k ((((cfg0.win 4).blk t).view.emb j) 1) := fun k => by
    funext a; apply Fin.ext
    match a with
    | ⟨0, _⟩ => show win0_1.index t (0 : Fin 2) * 256 + 1 * k.val = k.val; omega
    | ⟨1, _⟩ => show win0_1.index t (1 : Fin 2) * 256 + 1 * (j 1).val = win0_4.index t (1 : Fin 2) * 256 + 1 * (j 1).val; omega
  rw [hd, hb]
  simp only [hx, hw]
  rfl

/-- An index of the output array is in point `t`'s block iff each coordinate is in the block's range on its axis. -/
theorem mem_block_g (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v20).slice (win0_4.rect t)).set ↔ _
  rw [View.set_slice_whole, Rect.mem_set_unit]
  exact Iff.rfl

/-- THE MATRIX KERNEL'S OUTPUT: `gemmScaled` of the entry arrays (row `r` is in block `r / 2000`). -/
theorem gemm_scaled (c : Dev nD) :
    (dat0 V c).arrAt 4 cfg0.N = gemmScaled (n := 50000) (V c main_arg0) (V c main_arg3) (V c main_v19) (V c main_v12) :=
  (dat0 V c).arrAt_eq_of_cover 4 _ (fun t _ => flushed_g V c t) fun i => by
    have hN : cfg0.N = 25 := N_0
    have h0 : (i 0).val < 50000 := (i 0).isLt
    have h1 : (i 1).val < 256 := (i 1).isLt
    refine ⟨⟨(i 0).val / 2000, by omega⟩, flush0_4 _, ?_⟩
    rw [mem_block_g]
    obtain ⟨-, -, -, -, -, -, -, -, e8, e9⟩ := blocks_g ⟨(i 0).val / 2000, by omega⟩
    intro a
    match a with
    | ⟨0, _⟩ =>
      show win0_4.index ⟨(i 0).val / 2000, _⟩ (0 : Fin 2) * 2000 ≤ (i 0).val ∧ (i 0).val < win0_4.index ⟨(i 0).val / 2000, _⟩ (0 : Fin 2) * 2000 + 2000
      rw [e8]; dsimp only; omega
    | ⟨1, _⟩ =>
      show win0_4.index ⟨(i 0).val / 2000, _⟩ (1 : Fin 2) * 256 ≤ (i 1).val ∧ (i 1).val < win0_4.index ⟨(i 0).val / 2000, _⟩ (1 : Fin 2) * 256 + 256
      rw [e9]; omega

end Gemm

end Cert.KernelIdeal.Blocks

end
-- ==== Proof.Chain.lean ====
/-
  The result array of the idealized kernel as ONE function of the five arguments.

  The host side of the program, named once:
  * `degV n`, `degE e`: how many of the 800000 incidences name each node, each edge (a scatter-add of ones);
  * `dV n = where(degV > 0, degV ^ (-1/2), 0)`, `dE e = where(degE > 0, 1 / degE, 0)`: the two diagonal scalings;
  * `toEdges Z n e`: gather the rows of `Z` by node index (a negative index wrapped once by the extent), scatter-add
    them by edge index; `toNodes S n e`: the same from edges back to nodes.
  Each stretch of host operations is read at an arbitrary valuation of the buffers at its entry (`entry_*`, `edges_*`,
  `nodes_*`): what it computes, and that it leaves the other buffers we follow alone. Between stretches a kernel replaces
  its output array by the closed form of Blocks.lean and keeps everything else. Walking the boundaries from the launch
  memory to the end gives `result_value`:
    result = scaleRows (toNodes (scaleRows (toEdges (gemmScaled X W b' dV') n e) dE') n e) dV'
  with `b'`, `dV'`, `dE'` the bias and the scalings reshaped to a row and to columns.
-/
import proofs.«100249_j46342697124074_1_alg».proof.Proof.Gen.KernelIdeal.Frame
import proofs.«100249_j46342697124074_1_alg».proof.Proof.Blocks
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Blocks
open Idealize.ShloMosaic Idealize.ShloMosaic.TcCoe Idealize.SL.Sem Idealize.ShloMosaic.StableHlo
open Idealize.ShloMosaic.Pipeline (Dat)

/-! ## The host functions -/

section Host

variable {F : FTy → Type} [FloatOps F]

/-- The number of incidences naming each node. -/
def degV (n : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant (F := F) S_ .f32 0x00000000#32))
    (broadcastInDim S800000x1 ![0] bcast_S800000_S800000x1_0 n)
    (broadcastInDim S800000 ![] bcast_S_S800000 (constant (F := F) S_ .f32 0x3F800000#32))

/-- The number of incidences naming each edge. -/
def degE (e : (⟨S800000, .i32⟩ : BufTy).Contents (Elt F)) : (⟨S25000, .f32⟩ : BufTy).Contents (Elt F) :=
  Host.scatterAdd scatter_S25000_S800000x1_S800000_n_0_0_1
    (broadcastInDim S25000 ![] bcast_S_S25000 (constant (F := F) S_ .f32 0x00000000#32))
    (broadcastInDim S800000x1 ![0] bcast_S800000_S800000x1_0 e)
    (broadcastInDim S800000 ![] bcast_S_S800000 (constant (F := F) S_ .f32 0x3F800000#32))

/-- The node scaling: the degree to the power -1/2 where the degree is positive, 0 elsewhere. -/
def dV (n : (⟨S800000, .i32⟩ : BufTy).Contents (Elt F)) : (⟨S50000, .f32⟩ : BufTy).Contents (Elt F) :=
  select (cmpf (F := F) .ogt (degV n) (broadcastInDim S50000 ![] bcast_S_S50000 (constant (F := F) S_ .f32 0x00000000#32)))
    (Host.powf (degV n) (broadcastInDim S50000 ![] bcast_S_S50000 (constant (F := F) S_ .f32 0xBF000000#32)))
    (broadcastInDim S50000 ![] bcast_S_S50000 (id (constant (F := F) S_ .f32 0x00000000#32)))

/-- The edge scaling: one over the degree where the degree is positive, 0 elsewhere. -/
def dE (e : (⟨S800000, .i32⟩ : BufTy).Contents (Elt F)) : (⟨S25000, .f32⟩ : BufTy).Contents (Elt F) :=
  select (cmpf (F := F) .ogt (degE e) (broadcastInDim S25000 ![] bcast_S_S25000 (constant (F := F) S_ .f32 0x00000000#32)))
    (Host.divf (broadcastInDim S25000 ![] bcast_S_S25000 (constant (F := F) S_ .f32 0x3F800000#32)) (degE e))
    (broadcastInDim S25000 ![] bcast_S_S25000 (id (constant (F := F) S_ .f32 0x00000000#32)))

/-- Gather rows by node index (a negative index wrapped by 50000), scatter-add them by edge index. -/
def toEdges (Z : (⟨S50000x256, .f32⟩ : BufTy).Contents (Elt F)) (n e : (⟨S800000, .i32⟩ : BufTy).Contents (Elt F)) :
    (⟨S25000x256, .f32⟩ : BufTy).Contents (Elt F) :=
  Host.scatterAdd scatter_S25000x256_S800000x1_S800000x256_1_0_0_1
    (broadcastInDim S25000x256 ![] bcast_S_S25000x256 (constant (F := F) S_ .f32 0x00000000#32))
    (broadcastInDim S800000x1 ![0] bcast_S800000_S800000x1_0 e)
    (Host.gather gather_S50000x256_S800000x1_S800000x256_1_0_n_n_0_1_1256 Z
      (broadcastInDim S800000x1 ![0] bcast_S800000_S800000x1_0
        (select (cmpi .slt n (broadcastInDim S800000 ![] bcast_S_S800000 (constantI S_ 32 0#32)))
          (addi n (broadcastInDim S800000 ![] bcast_S_S800000 (constantI S_ 32 50000#32))) n)))

/-- Gather rows by edge index (a negative index wrapped by 25000), scatter-add them by node index. -/
def toNodes (S : (⟨S25000x256, .f32⟩ : BufTy).Contents (Elt F)) (n e : (⟨S800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 n)
    (Host.gather gather_S25000x256_S800000x1_S800000x256_1_0_n_n_0_1_1256 S
      (broadcastInDim S800000x1 ![0] bcast_S800000_S800000x1_0
        (select (cmpi .slt e (broadcastInDim S800000 ![] bcast_S_S800000 (constantI S_ 32 0#32)))
          (addi e (broadcastInDim S800000 ![] bcast_S_S800000 (constantI S_ 32 25000#32))) e)))

/-! ## Each host stretch, from any contents at its entry -/

variable (U : Valuation τ sig (Elt F))

/-- The five stretches before the first kernel, one after the other. -/
abbrev entry : Valuation τ sig (Elt F) :=
  after hostOps0_4 (after hostOps0_3 (after hostOps0_2 (after hostOps0_1 (after hostOps0 U))))

set_option maxHeartbeats 4000000 in
theorem entry_arg0 : entry U (Proc.devRef .tc main_arg0) = U (Proc.devRef .tc main_arg0) := by
  after_results_simp <;> rfl
set_option maxHeartbeats 4000000 in
theorem entry_arg1 : entry U (Proc.devRef .tc main_arg1) = U (Proc.devRef .tc main_arg1) := by
  after_results_simp <;> rfl
set_option maxHeartbeats 4000000 in
theorem entry_arg2 : entry U (Proc.devRef .tc main_arg2) = U (Proc.devRef .tc main_arg2) := by
  after_results_simp <;> rfl
set_option maxHeartbeats 4000000 in
theorem entry_arg3 : entry U (Proc.devRef .tc main_arg3) = U (Proc.devRef .tc main_arg3) := by
  after_results_simp <;> rfl
set_option maxHeartbeats 4000000 in
/-- The bias as a row. -/
theorem entry_bias : entry U (Proc.devRef .tc main_v19) = shapeCast S1x256 (U (Proc.devRef .tc main_arg4)) shapeCasts_S256_S1x256 := by
  after_results_simp <;> rfl
set_option maxHeartbeats 4000000 in
/-- The node scaling as a column. -/
theorem entry_dV : entry U (Proc.devRef .tc main_v12) = shapeCast S50000x1 (dV (U (Proc.devRef .tc main_arg1))) shapeCasts_S50000_S50000x1 := by
  after_results_simp <;> rfl
set_option maxHeartbeats 4000000 in
/-- The edge scaling as a column. -/
theorem entry_dE : entry U (Proc.devRef .tc main_v18) = shapeCast S25000x1 (dE (U (Proc.devRef .tc main_arg2))) shapeCasts_S25000_S25000x1 := by
  after_results_simp <;> rfl

set_option maxHeartbeats 4000000 in
/-- The stretch between the first two kernels sends the first kernel's output to the edges … -/
theorem edges_value : after hostOps1 U (Proc.devRef .tc main_v30)
    = toEdges (U (Proc.devRef .tc main_v20)) (U (Proc.devRef .tc main_arg1)) (U (Proc.devRef .tc main_arg2)) := by
  after_results_simp <;> rfl
set_option maxHeartbeats 4000000 in
/-- … and leaves the scalings and the index arrays alone. -/
theorem edges_keep_dV : after hostOps1 U (Proc.devRef .tc main_v12) = U (Proc.devRef .tc main_v12) := by
  after_results_simp <;> rfl
set_option maxHeartbeats 4000000 in
theorem edges_keep_dE : after hostOps1 U (Proc.devRef .tc main_v18) = U (Proc.devRef .tc main_v18) := by
  after_results_simp <;> rfl
set_option maxHeartbeats 4000000 in
theorem edges_keep_arg1 : after hostOps1 U (Proc.devRef .tc main_arg1) = U (Proc.devRef .tc main_arg1) := by
  after_results_simp <;> rfl
set_option maxHeartbeats 4000000 in
theorem edges_keep_arg2 : after hostOps1 U (Proc.devRef .tc main_arg2) = U (Proc.devRef .tc main_arg2) := by
  after_results_simp <;> rfl

set_option maxHeartbeats 4000000 in
/-- The stretch between the last two kernels sends the second kernel's output back to the nodes … -/
theorem nodes_value : after hostOps2 U (Proc.devRef .tc main_v41)
    = toNodes (U (Proc.devRef .tc main_v31)) (U (Proc.devRef .tc main_arg1)) (U (Proc.devRef .tc main_arg2)) := by
  after_results_simp <;> rfl
set_option maxHeartbeats 4000000 in
/-- … and leaves the node scaling alone. -/
theorem nodes_keep_dV : after hostOps2 U (Proc.devRef .tc main_v12) = U (Proc.devRef .tc main_v12) := by
  after_results_simp <;> rfl

end Host

/-! ## The boundaries, from the launch memory to the end (at the extended reals) -/

section Walk

variable (m : (ℓ : Loc nD τ sig) → Buf (Elt Ideal) ℓ) (ρ : Dev nD → PrngReg) (c : Dev nD)

/-- The five arguments' launch contents on core `c`. -/
abbrev argX : S50000x256.Idx → EReal := m ((c : Thread nD τ).loc main_arg0)
abbrev argN : (⟨S800000, .i32⟩ : BufTy).Contents (Elt Ideal) := m ((c : Thread nD τ).loc main_arg1)
abbrev argE : (⟨S800000, .i32⟩ : BufTy).Contents (Elt Ideal) := m ((c : Thread nD τ).loc main_arg2)
abbrev argW : S256x256.Idx → EReal := m ((c : Thread nD τ).loc main_arg3)
abbrev argB : S256.Idx → EReal := m ((c : Thread nD τ).loc main_arg4)

/-- The node scaling as a column, the edge scaling as a column, the bias as a row. -/
abbrev dVcol : S50000x1.Idx → EReal := shapeCast S50000x1 (dV (F := Ideal) (argN m c)) shapeCasts_S50000_S50000x1
abbrev dEcol : S25000x1.Idx → EReal := shapeCast S25000x1 (dE (F := Ideal) (argE m c)) shapeCasts_S25000_S25000x1
abbrev brow : S1x256.Idx → EReal := shapeCast S1x256 (argB m c) shapeCasts_S256_S1x256

/-- After the first kernel: its output is the scaled product-plus-bias of the arguments. -/
theorem after_gemm : W6 m ρ c (Proc.devRef .tc main_v20) = gemmScaled (n := 50000) (argX m c) (argW m c) (brow m c) (dVcol m c) := by
  refine (W6_arr m ρ c 4).trans ((gemm_scaled (V5 m ρ) c).trans ?_)
  have a0 : V5 m ρ c main_arg0 = (argX m c) := entry_arg0 (W0 m ρ c)
  have a3 : V5 m ρ c main_arg3 = (argW m c) := entry_arg3 (W0 m ρ c)
  have ab : V5 m ρ c main_v19 = brow m c := entry_bias (W0 m ρ c)
  have ad : V5 m ρ c main_v12 = dVcol m c := entry_dV (W0 m ρ c)
  rw [a0, a3, ab, ad]

/-- The node scaling's column is an INPUT of the first kernel: staged, never written back. -/
theorem dV_after_gemm : W6 m ρ c (Proc.devRef .tc main_v12) = dVcol m c :=
  (W6_arr m ρ c 3).trans (((dat0 (V5 m ρ) c).arrAt_in 3 rfl _).trans ((A_eq0 (V5 m ρ) c 3).trans (entry_dV (W0 m ρ c))))

theorem dE_after_gemm : W6 m ρ c (Proc.devRef .tc main_v18) = dEcol m c :=
  (W6_of_ne m ρ c main_v18 (by decide)).trans (entry_dE (W0 m ρ c))
theorem arg1_after_gemm : W6 m ρ c (Proc.devRef .tc main_arg1) = (argN m c) :=
  (W6_of_ne m ρ c main_arg1 (by decide)).trans (entry_arg1 (W0 m ρ c))
theorem arg2_after_gemm : W6 m ρ c (Proc.devRef .tc main_arg2) = (argE m c) :=
  (W6_of_ne m ρ c main_arg2 (by decide)).trans (entry_arg2 (W0 m ρ c))

/-- After the second kernel: the edge sums, each row scaled by its edge's scaling. -/
theorem after_edge_scale : W8 m ρ c (Proc.devRef .tc main_v31)
    = scaleRows (n := 25000) (k := 256) (toEdges (F := Ideal) (gemmScaled (n := 50000) (argX m c) (argW m c) (brow m c) (dVcol m c)) (argN m c) (argE m c)) (dEcol m c) := by
  refine (W8_arr m ρ c 2).trans ((scaled_e (V7 m ρ) c).trans ?_)
  have hx : V7 m ρ c main_v30 = toEdges (F := Ideal) (gemmScaled (n := 50000) (argX m c) (argW m c) (brow m c) (dVcol m c)) (argN m c) (argE m c) := by
    refine (edges_value (W6 m ρ c)).trans ?_
    rw [after_gemm, arg1_after_gemm, arg2_after_gemm]
  have hd : V7 m ρ c main_v18 = dEcol m c := (edges_keep_dE (W6 m ρ c)).trans (dE_after_gemm m ρ c)
  rw [hx, hd]

theorem dV_after_edge_scale : W8 m ρ c (Proc.devRef .tc main_v12) = dVcol m c :=
  (W8_of_ne m ρ c main_v12 (by decide)).trans ((edges_keep_dV (W6 m ρ c)).trans (dV_after_gemm m ρ c))
theorem arg1_after_edge_scale : W8 m ρ c (Proc.devRef .tc main_arg1) = (argN m c) :=
  (W8_of_ne m ρ c main_arg1 (by decide)).trans ((edges_keep_arg1 (W6 m ρ c)).trans (arg1_after_gemm m ρ c))
theorem arg2_after_edge_scale : W8 m ρ c (Proc.devRef .tc main_arg2) = (argE m c) :=
  (W8_of_ne m ρ c main_arg2 (by decide)).trans ((edges_keep_arg2 (W6 m ρ c)).trans (arg2_after_gemm m ρ c))

/-- THE RESULT as one function of the five arguments. -/
def kernelValue (X : S50000x256.Idx → EReal) (n e : (⟨S800000, .i32⟩ : BufTy).Contents (Elt Ideal)) (W : S256x256.Idx → EReal)
    (b : S256.Idx → EReal) : S50000x256.Idx → EReal :=
  scaleRows (n := 50000) (k := 256)
    (toNodes (F := Ideal)
      (scaleRows (n := 25000) (k := 256)
        (toEdges (F := Ideal)
          (gemmScaled (n := 50000) X W (shapeCast S1x256 b shapeCasts_S256_S1x256)
            (shapeCast S50000x1 (dV (F := Ideal) n) shapeCasts_S50000_S50000x1)) n e)
        (shapeCast S25000x1 (dE (F := Ideal) e) shapeCasts_S25000_S25000x1)) n e)
    (shapeCast S50000x1 (dV (F := Ideal) n) shapeCasts_S50000_S50000x1)

/-- After the third kernel the result array holds `kernelValue` of the launch contents of the arguments. -/
theorem result_value : W10 m ρ c (Proc.devRef .tc main_v42) = kernelValue (argX m c) (argN m c) (argE m c) (argW m c) (argB m c) := by
  refine (W10_arr m ρ c 2).trans ((scaled_v (V9 m ρ) c).trans ?_)
  have hx : V9 m ρ c main_v41 = toNodes (F := Ideal)
      (scaleRows (n := 25000) (k := 256) (toEdges (F := Ideal) (gemmScaled (n := 50000) (argX m c) (argW m c) (brow m c) (dVcol m c)) (argN m c) (argE m c)) (dEcol m c)) (argN m c) (argE m c) := by
    refine (nodes_value (W8 m ρ c)).trans ?_
    rw [after_edge_scale, arg1_after_edge_scale, arg2_after_edge_scale]
  have hd : V9 m ρ c main_v12 = dVcol m c := (nodes_keep_dV (W8 m ρ c)).trans (dV_after_edge_scale m ρ c)
  rw [hx, hd]
  rfl

end Walk

end Cert.KernelIdeal.Chain

end
-- ==== Proof.Bridge.lean ====
/-
  The reference's result IS the kernel's function of the arguments.

  Both programs compute, with the SAME host operations (the two degree scatters, the scalings, the two gather / scatter-add
  passes), three row scalings. They differ only in how each scaling is spelt:
  * the reference multiplies `spread(d) · x`, the scaling vector broadcast to a column and then across the 256 columns,
    where the kernels compute `x · column(d)` block by block — equal entry by entry because the product of extended
    reals is commutative (no finiteness is needed);
  * the reference's first factor is `spread(dV) · (X @ W + spread(b))` with the host's `dot_general`, the first kernel's
    `dV[r] · (Σ_k X[r, k] · W[k, c] + b[c])`: the same sum over the 256 contracted positions, in the same order of factors.
  Rewriting the reference's three products into the kernel's closed forms leaves two terms that differ only in which
  program's copy of each shape and dimension record they name.
-/
import proofs.«100249_j46342697124074_1_alg».proof.Proof.Chain
import proofs.«100249_j46342697124074_1_alg».proof.Proof.RefRun
import Idealize.ShloMosaic.Lib.ValueLayout
import Idealize.ShloMosaic.Lib.ValueIdx
import Idealize.ShloMosaic.PureOps.Ideal.Laws

set_option maxRecDepth 16384

noncomputable section

open scoped BigOperators

namespace Cert.Bridge

open Idealize.ShloMosaic Idealize.ShloMosaic.TcCoe Idealize.SL.Sem Idealize.ShloMosaic.ValueIdx
open Cert.KernelIdeal.Blocks Cert.KernelIdeal.Chain

/-! ## A vector as a column, and the reference's spreads, read at an entry -/

/-- An `[a]` array cast to `[a, 1]` reads, at `(i, u)`, the operand at `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The node scaling spread over a [50000, 256] array reads, at `(r, c)`, the vector at `r`. -/
theorem spread_v (d : Cert.ReferenceIdeal.S50000.Idx → EReal) (i : Cert.ReferenceIdeal.S50000x256.Idx) :
    broadcastInDim Cert.ReferenceIdeal.S50000x256 ![0, 1] Cert.ReferenceIdeal.Facts₀.bcast_S50000x1_S50000x256_0_1
      (broadcastInDim Cert.ReferenceIdeal.S50000x1 ![0] Cert.ReferenceIdeal.Facts₀.bcast_S50000_S50000x1_0 d) i = d (ix1 (i 0)) :=
  (broadcastInDim_apply _ _ _ i (ix2 (i 0) (0 : Fin 1)) (fun a => by match a with | ⟨0, _⟩ => rfl | ⟨1, _⟩ => rfl)).trans
    (broadcastInDim_apply _ _ _ (ix2 (i 0) (0 : Fin 1)) (ix1 (i 0)) (fun a => by match a with | ⟨0, _⟩ => rfl))

/-- The edge scaling spread over a [25000, 256] array reads, at `(r, c)`, the vector at `r`. -/
theorem spread_e (d : Cert.ReferenceIdeal.S25000.Idx → EReal) (i : Cert.ReferenceIdeal.S25000x256.Idx) :
    broadcastInDim Cert.ReferenceIdeal.S25000x256 ![0, 1] Cert.ReferenceIdeal.Facts₀.bcast_S25000x1_S25000x256_0_1
      (broadcastInDim Cert.ReferenceIdeal.S25000x1 ![0] Cert.ReferenceIdeal.Facts₀.bcast_S25000_S25000x1_0 d) i = d (ix1 (i 0)) :=
  (broadcastInDim_apply _ _ _ i (ix2 (i 0) (0 : Fin 1)) (fun a => by match a with | ⟨0, _⟩ => rfl | ⟨1, _⟩ => rfl)).trans
    (broadcastInDim_apply _ _ _ (ix2 (i 0) (0 : Fin 1)) (ix1 (i 0)) (fun a => by match a with | ⟨0, _⟩ => rfl))

/-- The bias spread over a [50000, 256] array reads, at `(r, c)`, the vector at `c`. -/
theorem spread_b (b : Cert.ReferenceIdeal.S256.Idx → EReal) (i : Cert.ReferenceIdeal.S50000x256.Idx) :
    broadcastInDim Cert.ReferenceIdeal.S50000x256 ![0, 1] Cert.ReferenceIdeal.Facts₀.bcast_S1x256_S50000x256_0_1
      (broadcastInDim Cert.ReferenceIdeal.S1x256 ![1] Cert.ReferenceIdeal.Facts₀.bcast_S256_S1x256_1 b) i = b (ix1 (i 1)) :=
  (broadcastInDim_apply _ _ _ i (ix2 (0 : Fin 1) (i 1)) (fun a => by match a with | ⟨0, _⟩ => rfl | ⟨1, _⟩ => rfl)).trans
    (broadcastInDim_apply _ _ _ (ix2 (0 : Fin 1) (i 1)) (ix1 (i 1)) (fun a => by match a with | ⟨0, _⟩ => rfl))

/-! ## The reference's matrix product at an entry -/

/-- The reference's dimension numbers: [50000,256] × [256,256], contracting the one shared axis. -/
abbrev D₁ : DotDims Cert.ReferenceIdeal.S50000x256 Cert.ReferenceIdeal.S256x256 Cert.ReferenceIdeal.S50000x256 :=
  Cert.ReferenceIdeal.dot_S50000x256_S256x256_S50000x256_1_0_0_1_n_n

theorem lhs_row (j : Cert.ReferenceIdeal.S50000x256.Idx) (q : D₁.contr.Idx) : (D₁.lhsIdx j q 0).val = (j 0).val := by
  unfold DotDims.lhsIdx
  rw [dif_neg (show ¬(0 : Fin Cert.ReferenceIdeal.S50000x256.rank) ∈ D₁.lhsBatch by decide),
    dif_pos (show (0 : Fin Cert.ReferenceIdeal.S50000x256.rank) ∈ D₁.lhsNonContracting by decide)]
  rfl
theorem lhs_col (j : Cert.ReferenceIdeal.S50000x256.Idx) (q : D₁.contr.Idx) : (D₁.lhsIdx j q 1).val = (q ⟨0, by decide⟩).val :=
  D₁.lhsIdx_val_of_single rfl j q
theorem rhs_row (j : Cert.ReferenceIdeal.S50000x256.Idx) (q : D₁.contr.Idx) : (D₁.rhsIdx j q 0).val = (q ⟨0, by decide⟩).val :=
  D₁.rhsIdx_val_of_single rfl j q
theorem rhs_col (j : Cert.ReferenceIdeal.S50000x256.Idx) (q : D₁.contr.Idx) : (D₁.rhsIdx j q 1).val = (j 1).val := by
  unfold DotDims.rhsIdx
  rw [dif_neg (show ¬(1 : Fin Cert.ReferenceIdeal.S256x256.rank) ∈ D₁.rhsBatch by decide),
    dif_pos (show (1 : Fin Cert.ReferenceIdeal.S256x256.rank) ∈ D₁.rhsNonContracting by decide)]
  rfl

/-- The host's `dot_general` at an entry: the plain sum over the 256 contracted positions. -/
theorem ref_product (X : FVec Ideal Cert.ReferenceIdeal.S50000x256 .f32) (W : FVec Ideal Cert.ReferenceIdeal.S256x256 .f32)
    (j : Cert.ReferenceIdeal.S50000x256.Idx) :
    Host.dotGeneral (F := Ideal) D₁ none X W j = ∑ k : Fin 256, X (ix2 (j 0) k) * W (ix2 k (j 1)) := by
  simp only [Host.dotGeneral]
  rw [Ideal.dotGeneral_apply, ← Equiv.sum_comp (contrEquiv1 D₁ 256 rfl rfl).symm]
  refine Finset.sum_congr rfl fun k _ => ?_
  have hk : (((contrEquiv1 D₁ 256 rfl rfl).symm k) ⟨0, by decide⟩ : ℕ) = k.val := contrEquiv1_symm_val D₁ 256 rfl rfl k
  have hl : D₁.lhsIdx j ((contrEquiv1 D₁ 256 rfl rfl).symm k) = ix2 (j 0) k := by
    funext a; apply Fin.ext
    match a with
    | ⟨0, _⟩ => exact lhs_row j _
    | ⟨1, _⟩ => exact (lhs_col j _).trans hk
  have hr : D₁.rhsIdx j ((contrEquiv1 D₁ 256 rfl rfl).symm k) = ix2 k (j 1) := by
    funext a; apply Fin.ext
    match a with
    | ⟨0, _⟩ => exact (rhs_row j _).trans hk
    | ⟨1, _⟩ => exact rhs_col j _
  rw [hl, hr]
  rfl

/-! ## The three scalings, the kernel's way and the reference's -/

/-- The last scaling: rows times the node column, or the spread node vector times the rows. -/
theorem scale_v_eq (x : FVec Ideal Cert.ReferenceIdeal.S50000x256 .f32) (d : Cert.ReferenceIdeal.S50000.Idx → EReal) :
    scaleRows (F := Ideal) (n := 50000) (k := 256) x (shapeCast Cert.KernelIdeal.S50000x1 d Cert.KernelIdeal.Facts₀.shapeCasts_S50000_S50000x1)
    = mulf (F := Ideal) (broadcastInDim Cert.ReferenceIdeal.S50000x256 ![0, 1] Cert.ReferenceIdeal.Facts₀.bcast_S50000x1_S50000x256_0_1
        (broadcastInDim Cert.ReferenceIdeal.S50000x1 ![0] Cert.ReferenceIdeal.Facts₀.bcast_S50000_S50000x1_0 d)) x := by
  funext i
  show (x i : EReal) * shapeCast Cert.KernelIdeal.S50000x1 d Cert.KernelIdeal.Facts₀.shapeCasts_S50000_S50000x1 (ix2 (i 0) (0 : Fin 1))
    = broadcastInDim Cert.ReferenceIdeal.S50000x256 ![0, 1] Cert.ReferenceIdeal.Facts₀.bcast_S50000x1_S50000x256_0_1
        (broadcastInDim Cert.ReferenceIdeal.S50000x1 ![0] Cert.ReferenceIdeal.Facts₀.bcast_S50000_S50000x1_0 d) i * x i
  rw [spread_v, mul_comm]
  exact congrArg (· * x i) (column_apply d _ (i 0) (0 : Fin 1))

/-- The middle scaling: rows times the edge column, or the spread edge vector times the rows. -/
theorem scale_e_eq (x : FVec Ideal Cert.ReferenceIdeal.S25000x256 .f32) (d : Cert.ReferenceIdeal.S25000.Idx → EReal) :
    scaleRows (F := Ideal) (n := 25000) (k := 256) x (shapeCast Cert.KernelIdeal.S25000x1 d Cert.KernelIdeal.Facts₀.shapeCasts_S25000_S25000x1)
    = mulf (F := Ideal) (broadcastInDim Cert.ReferenceIdeal.S25000x256 ![0, 1] Cert.ReferenceIdeal.Facts₀.bcast_S25000x1_S25000x256_0_1
        (broadcastInDim Cert.ReferenceIdeal.S25000x1 ![0] Cert.ReferenceIdeal.Facts₀.bcast_S25000_S25000x1_0 d)) x := by
  funext i
  show (x i : EReal) * shapeCast Cert.KernelIdeal.S25000x1 d Cert.KernelIdeal.Facts₀.shapeCasts_S25000_S25000x1 (ix2 (i 0) (0 : Fin 1))
    = broadcastInDim Cert.ReferenceIdeal.S25000x256 ![0, 1] Cert.ReferenceIdeal.Facts₀.bcast_S25000x1_S25000x256_0_1
        (broadcastInDim Cert.ReferenceIdeal.S25000x1 ![0] Cert.ReferenceIdeal.Facts₀.bcast_S25000_S25000x1_0 d) i * x i
  rw [spread_e, mul_comm]
  exact congrArg (· * x i) (column_apply d _ (i 0) (0 : Fin 1))

/-- The first scaling: the kernel's scaled product-plus-bias is the reference's. -/
theorem gemm_eq (X : FVec Ideal Cert.ReferenceIdeal.S50000x256 .f32) (W : FVec Ideal Cert.ReferenceIdeal.S256x256 .f32)
    (b : Cert.ReferenceIdeal.S256.Idx → EReal) (d : Cert.ReferenceIdeal.S50000.Idx → EReal) :
    gemmScaled (n := 50000) X W (shapeCast Cert.KernelIdeal.S1x256 b Cert.KernelIdeal.Facts₀.shapeCasts_S256_S1x256)
      (shapeCast Cert.KernelIdeal.S50000x1 d Cert.KernelIdeal.Facts₀.shapeCasts_S50000_S50000x1)
    = mulf (F := Ideal) (broadcastInDim Cert.ReferenceIdeal.S50000x256 ![0, 1] Cert.ReferenceIdeal.Facts₀.bcast_S50000x1_S50000x256_0_1
        (broadcastInDim Cert.ReferenceIdeal.S50000x1 ![0] Cert.ReferenceIdeal.Facts₀.bcast_S50000_S50000x1_0 d))
      (addf (F := Ideal) (Host.dotGeneral (F := Ideal) D₁ none X W)
        (broadcastInDim Cert.ReferenceIdeal.S50000x256 ![0, 1] Cert.ReferenceIdeal.Facts₀.bcast_S1x256_S50000x256_0_1
          (broadcastInDim Cert.ReferenceIdeal.S1x256 ![1] Cert.ReferenceIdeal.Facts₀.bcast_S256_S1x256_1 b))) := by
  funext i
  show shapeCast Cert.KernelIdeal.S50000x1 d Cert.KernelIdeal.Facts₀.shapeCasts_S50000_S50000x1 (ix2 (i 0) (0 : Fin 1))
      * ((∑ k : Fin 256, (X (ix2 (i 0) k) : EReal) * W (ix2 k (i 1)))
        + shapeCast Cert.KernelIdeal.S1x256 b Cert.KernelIdeal.Facts₀.shapeCasts_S256_S1x256 (ix2 (0 : Fin 1) (i 1)))
    = broadcastInDim Cert.ReferenceIdeal.S50000x256 ![0, 1] Cert.ReferenceIdeal.Facts₀.bcast_S50000x1_S50000x256_0_1
        (broadcastInDim Cert.ReferenceIdeal.S50000x1 ![0] Cert.ReferenceIdeal.Facts₀.bcast_S50000_S50000x1_0 d) i
      * (Host.dotGeneral (F := Ideal) D₁ none X W i
        + broadcastInDim Cert.ReferenceIdeal.S50000x256 ![0, 1] Cert.ReferenceIdeal.Facts₀.bcast_S1x256_S50000x256_0_1
            (broadcastInDim Cert.ReferenceIdeal.S1x256 ![1] Cert.ReferenceIdeal.Facts₀.bcast_S256_S1x256_1 b) i)
  rw [spread_v, spread_b, ref_product]
  have hd : shapeCast Cert.KernelIdeal.S50000x1 d Cert.KernelIdeal.Facts₀.shapeCasts_S50000_S50000x1 (ix2 (i 0) (0 : Fin 1)) = d (ix1 (i 0)) :=
    column_apply d _ (i 0) (0 : Fin 1)
  have hb : shapeCast Cert.KernelIdeal.S1x256 b Cert.KernelIdeal.Facts₀.shapeCasts_S256_S1x256 (ix2 (0 : Fin 1) (i 1)) = b (ix1 (i 1)) :=
    shapeCast_a_1a_apply b _ (0 : Fin 1) (i 1)
  rw [hd, hb]

/-! ## The reference's result -/

/-- THE BRIDGE: the reference run's result term is `kernelValue` of the same five arrays. -/
theorem ref_is_kernelValue (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v49 (F := Ideal) m c
    = kernelValue (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4)) := by
  unfold Cert.ReferenceIdeal.ValueP.res_main_v49
  rw [← scale_v_eq, ← scale_e_eq, ← gemm_eq]
  rfl

end Cert.Bridge

end
-- ==== Proof.lean ====
/-
  HGNN convolution: three pipelined kernels against the plain jnp reference, equal at the extended reals.

  With `H` the node-by-edge incidence given by the two index arrays, `dV = deg_v^(-1/2)` and `dE = 1 / deg_e` (0 where a
  degree is 0), both programs compute
      dV · (H · (dE · (Hᵀ · (dV · (X W + b))))),
  the two products with `H` as a gather followed by a scatter-add. The kernel program does the three scalings in pipelined
  kernels over 25 row blocks (the first fused with the matrix product), everything else on the host; the reference does
  everything on the host.
  * The frames of the two kernel programs are generated whole; the reference's is its run with the result dropped.
  * Nothing was idealized away, so there is nothing to preserve.
  * For the value: the kernel program's run ends with the result array at the last boundary's contents (KRun), those
    contents are `kernelValue` of the arguments (Blocks: each kernel's output as one whole-array function; Chain: the host
    stretches between them), and the reference's result term is `kernelValue` of the same arrays (Bridge: commutativity
    of the product for the three scalings, one sum for the two matrix products). The finiteness of the inputs is never
    used: no law here fails at an infinity.
-/
import proofs.«100249_j46342697124074_1_alg».proof.Defs
import proofs.«100249_j46342697124074_1_alg».proof.Proof.Gen.Kernel
import proofs.«100249_j46342697124074_1_alg».proof.Proof.Gen.Kernel.Frame
import proofs.«100249_j46342697124074_1_alg».proof.Proof.Gen.KernelIdeal
import proofs.«100249_j46342697124074_1_alg».proof.Proof.Gen.KernelIdeal.Frame
import proofs.«100249_j46342697124074_1_alg».proof.Proof.Gen.ReferenceIdeal
import proofs.«100249_j46342697124074_1_alg».proof.Proof.Gen.Pre_finite_inputs
import proofs.«100249_j46342697124074_1_alg».proof.Proof.KRun
import proofs.«100249_j46342697124074_1_alg».proof.Proof.Chain
import proofs.«100249_j46342697124074_1_alg».proof.Proof.RefRun
import proofs.«100249_j46342697124074_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the five arguments both programs end with the result at `kernelValue` of those arguments. -/
theorem algebraic : Cert.algebraic_KernelIdeal_ReferenceIdeal := by
  intro m ρ m' ρ' _ hagree
  refine ⟨fun c => Cert.KernelIdeal.Chain.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Chain.result_value m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Bridge.ref_is_kernelValue, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
